-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x256 .f32) (main_arg1 : FVec F S1024x256 .f32) (main_arg2 : FVec F S1024 .f32) (main_arg3 : FVec F S1024 .f32) (main_arg4 : FVec F S1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16384x256 : Shape := ⟨2, ![16384, 256]⟩
abbrev S1024x256 : Shape := ⟨2, ![1024, 256]⟩
abbrev S1024 : Shape := ⟨1, ![1024]⟩
abbrev S256x1024 : Shape := ⟨2, ![256, 1024]⟩
abbrev S1x1024 : Shape := ⟨2, ![1, 1024]⟩
abbrev S16384x1024 : Shape := ⟨2, ![16384, 1024]⟩
abbrev S1024x1024 : Shape := ⟨2, ![1024, 1024]⟩
abbrev S1024x16x64 : Shape := ⟨3, ![1024, 16, 64]⟩
abbrev S1024x16 : Shape := ⟨2, ![1024, 16]⟩
abbrev S1024x16x1 : Shape := ⟨3, ![1024, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S256x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x256_S256x1024_1_0 : S1024x256.Transposes [1, 0] S256x1024
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x16x64 : S1024x1024.ShapeCasts S1024x16x64
  reduces_S1024x16x64_S1024x16 : S1024x16x64.Reduces [2] S1024x16
  shapeCasts_S1024x16_S1024x16x1 : S1024x16.ShapeCasts S1024x16x1
  broadcasts_S1024x16x1_S1024x16x64 : S1024x16x1.Broadcasts S1024x16x64
  shapeCasts_S1024x16x64_S1024x1024 : S1024x16x64.ShapeCasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .f32 = 32 ∨ (Rect.block (s := S16384x1024) S1024x1024.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024 : Shape := ⟨1, ![1024]⟩
abbrev S16384x1024 : Shape := ⟨2, ![16384, 1024]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x16x64, .f32⟩
  | .hbm, ⟨10, _⟩ => ⟨S_, .f32⟩
  | .hbm, ⟨11, _⟩ => ⟨S16384x16, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S16384x16x64, .f32⟩
  | .hbm, ⟨17, _⟩ => ⟨S16384x16x64, .f32⟩
  | .hbm, ⟨18, _⟩ => ⟨S16384x16x64, .f32⟩
  | .hbm, ⟨19, _⟩ => ⟨S_, .f32⟩
  | .hbm, ⟨20, _⟩ => ⟨S16384x16, .f32⟩
  | .hbm, ⟨21, _⟩ => ⟨S16384x16x1, .f32⟩
  | .hbm, ⟨22, _⟩ => ⟨S_, .f32⟩
  | .hbm, ⟨23, _⟩ => ⟨S16384x16x1, .f32⟩
  | .hbm, ⟨24, _⟩ => ⟨S16384x16x1, .f32⟩
  | .hbm, ⟨25, _⟩ => ⟨S16384x16x64, .f32⟩
  | .hbm, ⟨26, _⟩ => ⟨S16384x16x64, .f32⟩
  | .hbm, ⟨27, _⟩ => ⟨S_, .f32⟩
  | .hbm, ⟨28, _⟩ => ⟨S16384x16x1, .f32⟩
  | .hbm, ⟨29, _⟩ => ⟨S16384x16x1, .f32⟩
  | .hbm, ⟨30, _⟩ => ⟨S16384x16x1, .f32⟩
  | .hbm, ⟨31, _⟩ => ⟨S16384x16x64, .f32⟩
  | .hbm, ⟨32, _⟩ => ⟨S16384x16x64, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .i1⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  bcast_S16384x16x1_S16384x16x64_0_1_2 : S16384x16x1.BroadcastsInDim S16384x16x64 (![0, 1, 2] : Fin 3 → Fin S16384x16x64.rank)
  shapeCasts_S16384x16x64_S16384x1024 : S16384x16x64.ShapeCasts S16384x1024
  bcast_S_S16384x1024 : S_.BroadcastsInDim S16384x1024 (![] : Fin 0 → Fin S16384x1024.rank)
  dot_S16384x256_S1024x256_S16384x1024_1_1_0_0_n_n_wf : DotDims.WF S16384x256 S1024x256 S16384x1024 [1] [1] [0] [0] [] []

variable [Facts₀]

def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf

class Facts : Prop extends Facts₀ where

variable [Facts]
-- ==== Proof.LibRsqrtLaw.lean ====
/-
  A GENERAL LEMMA FILE (it imports only the library): facts about the extended reals that join a product with a
  reciprocal square root to a quotient by a square root — what a normalisation written `d * rsqrt(var + c)` needs to
  meet one written `d / sqrt(var + c)`.  It states: a square of an extended real is non-negative
  (`mul_self_nonneg`), so is a finite sum of squares (`sum_mul_self_nonneg`) and its quotient by a positive real
  (`div_coe_nonneg`); a non-negative plus a positive real is positive (`add_coe_pos`); THE LAW
  `mul_rsqrt_eq_div_sqrt : 0 < v → d * rsqrt v = div d (sqrt v)` for every `d`, and the same with the variance spelt
  out (`mul_rsqrt_var_eq_div_sqrt`); and two float constants, `64.0` as the real `64` (`ofBits_64`) and the float
  nearest `1e-5` as a positive real (`ofBits_eps_pos`).  On the extended reals `d * rsqrt v = d / sqrt v` is FALSE in general (at `v = ⊥`, at `v = 0` and at
  negative `v` the two conventions part), but it holds for every `d`, infinite or not, as soon as `0 < v`:
  then `v` is `⊤` (both sides `d * 0`) or a positive real (both sides `d * (√v)⁻¹`).  A variance plus a positive
  constant is always such a `v`, because a square of an extended real is never negative — the infinities square
  to `⊤` — so a sum of squares, divided by a positive real, is non-negative whatever the summands are.  No
  finiteness of the summands is used anywhere.
-/
import Idealize.ShloMosaic.PureOps.Ideal

noncomputable section

namespace Cert.RsqrtLaw

open Idealize.ShloMosaic

/-- A square of an extended real is non-negative. -/
theorem mul_self_nonneg (d : EReal) : 0 ≤ d * d :=
  EReal.mul_nonneg_iff.2 ((le_total 0 d).imp (fun h => ⟨h, h⟩) (fun h => ⟨h, h⟩))

/-- A finite sum of squares of extended reals is non-negative. -/
theorem sum_mul_self_nonneg {ι : Type*} (s : Finset ι) (f : ι → EReal) : 0 ≤ ∑ i ∈ s, f i * f i :=
  Finset.sum_nonneg fun i _ => mul_self_nonneg (f i)

/-- The quotient of a non-negative extended real by a positive real is non-negative. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.2 (one_div_pos.2 hn).le)

/-- A non-negative extended real plus a positive real is positive. -/
theorem add_coe_pos {a : EReal} (ha : 0 ≤ a) {e : ℝ} (he : 0 < e) : 0 < a + (e : EReal) :=
  lt_of_lt_of_le (EReal.coe_pos.2 he) (le_add_of_nonneg_left ha)

/-- THE LAW: for a positive extended real `v`, the product with its reciprocal square root is the quotient by its
    square root, for every extended real `d`. -/
theorem mul_rsqrt_eq_div_sqrt (d : EReal) {v : EReal} (hv : 0 < v) :
    d * Ideal.rsqrt v = Ideal.div d (Ideal.sqrt v) := by
  induction v using EReal.rec with
  | bot => exact absurd hv (not_lt.2 bot_le)
  | top =>
    rw [Ideal.rsqrt_top, Ideal.sqrt_top, Ideal.div, if_neg (by simp), EReal.inv_top]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hs), EReal.coe_inv]

/-- The same with the variance spelt out: `v` a sum of squares over a positive real, plus a positive real. -/
theorem mul_rsqrt_var_eq_div_sqrt {ι : Type*} (s : Finset ι) (f : ι → EReal) {n e : ℝ} (hn : 0 < n) (he : 0 < e)
    (d : EReal) :
    d * Ideal.rsqrt (Ideal.div (∑ i ∈ s, f i * f i) (n : EReal) + (e : EReal))
      = Ideal.div d (Ideal.sqrt (Ideal.div (∑ i ∈ s, f i * f i) (n : EReal) + (e : EReal))) :=
  mul_rsqrt_eq_div_sqrt d (add_coe_pos (div_coe_nonneg (sum_mul_self_nonneg s f) hn) he)

/-! ## The two float literals the law meets -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern `0x3727C5AC` (the float nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.RsqrtLaw

end
-- ==== Proof.GroupNormSpec.lean ====
/-
  The function both programs compute, stated once over the argument arrays and read index by index.

  For a row `r` of `x` and a channel `h`:  `lin r h = (∑ k, x[r,k] * W[h,k]) + b[h]`  (a dense layer).  The 1024
  channels fall into 16 groups of 64 consecutive channels, channel `64 g + l` being member `l` of group `g`.
  Within a group the row is centred by the group's mean (`gdev`) and scaled by the group's variance plus a
  constant; then an affine map per channel, a leaky rectifier, and a doubling (`tail`).  The kernel scales by
  the product with a reciprocal square root (`normK`), the reference by the quotient by a square root
  (`normR`); the two agree on the extended reals because the variance plus the constant is positive whatever
  the row holds (LibRsqrtLaw), so the two results are one function (`resK_eq_resR`).
-/
import Idealize.ShloMosaic.PureOps.Ideal
import Idealize.ShloMosaic.Lib.ValueIdx
import proofs.«132653_j3556232922393_1_alg».proof.Proof.LibRsqrtLaw

noncomputable section

namespace Cert.GroupNormSpec

open Idealize.ShloMosaic Idealize.ShloMosaic.ValueIdx

/-- The divisor of both means, `64.0`. -/
abbrev c64 : EReal := Ideal.ofBits .f32 0x42800000#32
/-- The constant added to the variance (the float nearest `1e-5`). -/
abbrev eps : EReal := Ideal.ofBits .f32 0x3727C5AC#32
/-- The rectifier's threshold, `0.0`. -/
abbrev zero : EReal := Ideal.ofBits .f32 0x00000000#32
/-- The rectifier's slope below the threshold (the float nearest `0.01`). -/
abbrev slope : EReal := Ideal.ofBits .f32 0x3C23D70A#32

/-- Member `l` of group `g` is channel `64 g + l`. -/
def chan (g : Fin 16) (l : Fin 64) : Fin 1024 := ⟨g.val * 64 + l.val, by have := g.isLt; have := l.isLt; omega⟩

/-- The group of a channel and its place in the group. -/
def grp (h : Fin 1024) : Fin 16 := ⟨h.val / 64, by have := h.isLt; omega⟩
def mem (h : Fin 1024) : Fin 64 := ⟨h.val % 64, Nat.mod_lt _ (by decide)⟩

theorem chan_grp_mem (h : Fin 1024) : chan (grp h) (mem h) = h :=
  Fin.ext (by show h.val / 64 * 64 + h.val % 64 = h.val; omega)

/-- A group's mean of a row of 1024 channels. -/
def gmean (y : Fin 1024 → EReal) (g : Fin 16) : EReal := Ideal.div (∑ l : Fin 64, y (chan g l)) c64

/-- A channel's deviation from its group's mean. -/
def gdev (y : Fin 1024 → EReal) (g : Fin 16) (l : Fin 64) : EReal := y (chan g l) - gmean y g

/-- A group's variance: the mean of the squared deviations. -/
def gvar (y : Fin 1024 → EReal) (g : Fin 16) : EReal := Ideal.div (∑ l : Fin 64, gdev y g l * gdev y g l) c64

/-- The kernel's normalised value: the deviation times the reciprocal square root of variance plus constant. -/
def normK (y : Fin 1024 → EReal) (g : Fin 16) (l : Fin 64) : EReal := gdev y g l * Ideal.rsqrt (gvar y g + eps)

/-- The reference's normalised value: the deviation over the square root of variance plus constant. -/
def normR (y : Fin 1024 → EReal) (g : Fin 16) (l : Fin 64) : EReal := Ideal.div (gdev y g l) (Ideal.sqrt (gvar y g + eps))

/-- The two normalisations agree for EVERY row of extended reals. -/
theorem normK_eq_normR (y : Fin 1024 → EReal) (g : Fin 16) (l : Fin 64) : normK y g l = normR y g l := by
  obtain ⟨e, he, hE⟩ := Cert.RsqrtLaw.ofBits_eps_pos
  unfold normK normR gvar
  rw [show c64 = ((64 : ℝ) : EReal) from Cert.RsqrtLaw.ofBits_64, show eps = (e : EReal) from hE]
  exact Cert.RsqrtLaw.mul_rsqrt_var_eq_div_sqrt Finset.univ (fun l => gdev y g l) (by norm_num) he _

/-- After the normalisation: the channel's affine map, the leaky rectifier, and the doubling. -/
def tail (n ga be : EReal) : EReal :=
  Scalar.select (Ideal.cmp .olt (n * ga + be) zero) ((n * ga + be) * slope) (n * ga + be)
    + Scalar.select (Ideal.cmp .olt (n * ga + be) zero) ((n * ga + be) * slope) (n * ga + be)

/-- The dense layer at row `r`, as a row of 1024 channels. -/
def lin (X : (⟨2, ![16384, 256]⟩ : Shape).Idx → EReal) (W : (⟨2, ![1024, 256]⟩ : Shape).Idx → EReal)
    (B : (⟨1, ![1024]⟩ : Shape).Idx → EReal) (r : Fin 16384) : Fin 1024 → EReal :=
  fun h => (∑ k : Fin 256, X (ix2 r k) * W (ix2 h k)) + B (ix1 h)

/-- THE RESULT as the kernel computes it, at row `r` and channel `h`. -/
def resK (X : (⟨2, ![16384, 256]⟩ : Shape).Idx → EReal) (W : (⟨2, ![1024, 256]⟩ : Shape).Idx → EReal)
    (B Ga Be : (⟨1, ![1024]⟩ : Shape).Idx → EReal) : (⟨2, ![16384, 1024]⟩ : Shape).Idx → EReal :=
  fun i => tail (normK (lin X W B (i 0)) (grp (i 1)) (mem (i 1))) (Ga (ix1 (i 1))) (Be (ix1 (i 1)))

/-- THE RESULT as the reference computes it. -/
def resR (X : (⟨2, ![16384, 256]⟩ : Shape).Idx → EReal) (W : (⟨2, ![1024, 256]⟩ : Shape).Idx → EReal)
    (B Ga Be : (⟨1, ![1024]⟩ : Shape).Idx → EReal) : (⟨2, ![16384, 1024]⟩ : Shape).Idx → EReal :=
  fun i => tail (normR (lin X W B (i 0)) (grp (i 1)) (mem (i 1))) (Ga (ix1 (i 1))) (Be (ix1 (i 1)))

/-- One function. -/
theorem resK_eq_resR (X : (⟨2, ![16384, 256]⟩ : Shape).Idx → EReal) (W : (⟨2, ![1024, 256]⟩ : Shape).Idx → EReal)
    (B Ga Be : (⟨1, ![1024]⟩ : Shape).Idx → EReal) : resK X W B Ga Be = resR X W B Ga Be := by
  funext i
  unfold resK resR
  rw [normK_eq_normR]

end Cert.GroupNormSpec

end
-- ==== Proof.BodyStages.lean ====
/-
  What the kernel's body stores, read at one index of its 1024 x 1024 block.

  The body's arithmetic is one long term; here it is cut into the stages the mathematics has — the dense layer
  of the block's rows (`kLin`), the regrouping of a row's 1024 channels as 16 groups of 64 (`kGroups`), a group's
  mean kept as a column (`kMean`), the deviation from it (`kDev`), the variance as the mean of squared deviations
  (`kVar`), the deviation times the reciprocal square root of variance plus constant (`kNorm`), the regrouping
  back (`kUngroup`), the channel's affine map (`kAffine`) and the leaky rectifier (`kLeaky`), doubled — and each
  stage is read at an index over explicit coordinates: row `p` of the block, group `g`, member `l`, channel `q`.
  Put together (`payload_apply`): entry `(p, q)` of what the body stores is the specification's `tail` of `normK`
  of the block's row `p`, at `q`'s group and place, with the scale and shift read at channel `q`.
-/
import proofs.«132653_j3556232922393_1_alg».proof.Proof.Gen.KernelIdeal.Skeleton
import proofs.«132653_j3556232922393_1_alg».proof.Proof.GroupNormSpec
import Idealize.ShloMosaic.Lib.ValueIdx
import Idealize.ShloMosaic.Lib.Pipeline.Value
import Idealize.ShloMosaic.PureOps.Ideal.Laws

noncomputable section

namespace Cert.BodyStages

open Cert.KernelIdeal Cert.KernelIdeal.Gen Cert.GroupNormSpec
open Idealize.ShloMosaic Idealize.ShloMosaic.ValueIdx

/-! ## The stages -/

/-- The dense layer of the block: rows of `x` against the transposed weight, plus the bias row. -/
def kLin (v0 : FVec Ideal S1024x256 .f32) (v2 : FVec Ideal S256x1024 .f32) (v6 : FVec Ideal S1x1024 .f32) :
    FVec Ideal S1024x1024 .f32 :=
  addf (matmul dot_S1024x256_S256x1024_S1024x1024_1_0_0_1_n_n none (truncf .bf16 v0 bitsLt_bf16_f32)
      (truncf .bf16 (shapeCast S256x1024 v2 shapeCasts_S256x1024_S256x1024) bitsLt_bf16_f32)
      (constant S1024x1024 .f32 0x00000000#32))
    (broadcastTo S1024x1024 (shapeCast S1x1024 v6 shapeCasts_S1x1024_S1x1024) broadcasts_S1x1024_S1024x1024)

/-- A row's 1024 channels as 16 groups of 64. -/
def kGroups (y : FVec Ideal S1024x1024 .f32) : FVec Ideal S1024x16x64 .f32 :=
  shapeCast S1024x16x64 y shapeCasts_S1024x1024_S1024x16x64

/-- The mean over a group's 64 members, kept as a column. -/
def kMean (z : FVec Ideal S1024x16x64 .f32) : FVec Ideal S1024x16x1 .f32 :=
  divf (shapeCast S1024x16x1 (multiReduction .add [2] S1024x16 z 0x00000000#32 reduces_S1024x16x64_S1024x16 (.inl rfl) rfl)
      shapeCasts_S1024x16_S1024x16x1)
    (broadcast S1024x16x1 (Scalar.ofBits .f32 0x42800000#32))

/-- The deviation from the group's mean. -/
def kDev (z : FVec Ideal S1024x16x64 .f32) : FVec Ideal S1024x16x64 .f32 :=
  subf z (broadcastTo S1024x16x64 (kMean z) broadcasts_S1024x16x1_S1024x16x64)

/-- The group's variance: the mean of the squared deviations. -/
def kVar (z : FVec Ideal S1024x16x64 .f32) : FVec Ideal S1024x16x1 .f32 :=
  kMean (mulf (kDev z) (kDev z))

/-- The deviation times the reciprocal square root of variance plus constant. -/
def kNorm (z : FVec Ideal S1024x16x64 .f32) : FVec Ideal S1024x16x64 .f32 :=
  mulf (kDev z) (broadcastTo S1024x16x64
    (rsqrt (addf (kVar z) (broadcast S1024x16x1 (Scalar.ofBits .f32 0x3727C5AC#32)))) broadcasts_S1024x16x1_S1024x16x64)

/-- Sixteen groups of 64 back to 1024 channels. -/
def kUngroup (n : FVec Ideal S1024x16x64 .f32) : FVec Ideal S1024x1024 .f32 :=
  shapeCast S1024x1024 n shapeCasts_S1024x16x64_S1024x1024

/-- The channel's scale and shift, each a row broadcast down the block. -/
def kAffine (n : FVec Ideal S1024x1024 .f32) (v28 v32 : FVec Ideal S1x1024 .f32) : FVec Ideal S1024x1024 .f32 :=
  addf (mulf n (broadcastTo S1024x1024 (shapeCast S1x1024 v28 shapeCasts_S1x1024_S1x1024) broadcasts_S1x1024_S1024x1024))
    (broadcastTo S1024x1024 (shapeCast S1x1024 v32 shapeCasts_S1x1024_S1x1024) broadcasts_S1x1024_S1024x1024)

/-- The leaky rectifier. -/
def kLeaky (z : FVec Ideal S1024x1024 .f32) : FVec Ideal S1024x1024 .f32 :=
  select (cmpf .olt z (broadcast S1024x1024 (Scalar.ofBits .f32 0x00000000#32)))
    (mulf z (broadcast S1024x1024 (Scalar.ofBits .f32 0x3C23D70A#32))) z

/-- The body's stored value is the stages composed, doubled. -/
theorem payload_eq (v0 : FVec Ideal S1024x256 .f32) (v2 : FVec Ideal S256x1024 .f32) (v6 v28 v32 : FVec Ideal S1x1024 .f32) :
    k0_pay1 (F := Ideal) (k0_pay2 (F := Ideal) v0 v2 v6 v28 v32)
      = addf (kLeaky (kAffine (kUngroup (kNorm (kGroups (kLin v0 v2 v6)))) v28 v32))
          (kLeaky (kAffine (kUngroup (kNorm (kGroups (kLin v0 v2 v6)))) v28 v32)) := rfl

/-! ## Each stage read at an index -/

/-- Group `g`, member `l` of row `p` is channel `64 g + l` of that row: both sit at the same row-major place. -/
theorem kGroups_apply (y : FVec Ideal S1024x1024 .f32) (p : Fin 1024) (g : Fin 16) (l : Fin 64) :
    kGroups y (ix3 p g l) = y (ix2 p (chan g l)) := by
  unfold kGroups
  refine shapeCast_apply y shapeCasts_S1024x1024_S1024x16x64 (ix3 p g l) (ix2 p (chan g l)) ?_
  rewrite [Shape.rowMajor_val_two, Shape.rowMajor_val_three]
  have hp := p.isLt; have hg := g.isLt; have hl := l.isLt
  show p.val * 1024 + (g.val * 64 + l.val) = (p.val * 16 + g.val) * 64 + l.val
  omega

/-- Channel `q` of row `p` is member `q % 64` of group `q / 64`. -/
theorem kUngroup_apply (n : FVec Ideal S1024x16x64 .f32) (p : Fin 1024) (q : Fin 1024) :
    kUngroup n (ix2 p q) = n (ix3 p (grp q) (mem q)) := by
  unfold kUngroup
  refine shapeCast_apply n shapeCasts_S1024x16x64_S1024x1024 (ix2 p q) (ix3 p (grp q) (mem q)) ?_
  rewrite [Shape.rowMajor_val_three, Shape.rowMajor_val_two]
  have hp := p.isLt; have hq := q.isLt
  show (p.val * 16 + q.val / 64) * 64 + q.val % 64 = p.val * 1024 + q.val
  omega

/-- A lane sum over a group's 64 members, at row `p` and group `g`: the sum of the members. -/
theorem groupSum_apply (z : FVec Ideal S1024x16x64 .f32) (hacc : (0x00000000#32 : BitVec 32) = 0x00000000#32) (p : Fin 1024) (g : Fin 16) :
    multiReduction .add [2] S1024x16 z 0x00000000#32 reduces_S1024x16x64_S1024x16 (.inl rfl) hacc (ix2 p g)
      = ∑ l : Fin 64, z (ix3 p g l) := by
  refine (Ideal.multiReduction_add_single z 0x00000000#32 reduces_S1024x16x64_S1024x16 (.inl rfl) hacc (ix2 p g)).trans ?_
  refine Finset.sum_congr rfl fun l _ => congrArg z (funext fun a => Fin.ext ?_)
  match a with
  | ⟨0, _⟩ => rfl
  | ⟨1, _⟩ => rfl
  | ⟨2, _⟩ => rfl

/-- The group's mean, read at the column's one place: the sum of the 64 members over `64.0`. -/
theorem kMean_apply (z : FVec Ideal S1024x16x64 .f32) (p : Fin 1024) (g : Fin 16) (o : Fin 1) :
    kMean z (ix3 p g o) = Ideal.div (∑ l : Fin 64, z (ix3 p g l)) c64 := by
  unfold kMean
  rw [divf_apply, broadcast_apply]
  refine congrArg (fun s => Ideal.div s c64) ?_
  refine (shapeCast_apply _ shapeCasts_S1024x16_S1024x16x1 (ix3 p g o) (ix2 p g) ?_).trans (groupSum_apply z rfl p g)
  rewrite [Shape.rowMajor_val_two, Shape.rowMajor_val_three]
  have ho := o.isLt
  show p.val * 16 + g.val = (p.val * 16 + g.val) * 1 + o.val
  omega

/-- A column broadcast across a group's 64 members reads the column's one place. -/
theorem column_apply (cv : FVec Ideal S1024x16x1 .f32) (p : Fin 1024) (g : Fin 16) (l : Fin 64) :
    broadcastTo S1024x16x64 cv broadcasts_S1024x16x1_S1024x16x64 (ix3 p g l) = cv (ix3 p g (0 : Fin 1)) :=
  broadcastTo_apply cv broadcasts_S1024x16x1_S1024x16x64 (ix3 p g l) (ix3 p g (0 : Fin 1)) fun a => by
    match a with
    | ⟨0, _⟩ => show p.val = if (1024 : Nat) = 1 then 0 else p.val; rw [if_neg (by decide)]
    | ⟨1, _⟩ => show g.val = if (16 : Nat) = 1 then 0 else g.val; rw [if_neg (by decide)]
    | ⟨2, _⟩ => show 0 = if (1 : Nat) = 1 then 0 else l.val; rw [if_pos rfl]

/-- The deviation of member `l` of group `g` from the group's mean. -/
theorem kDev_apply (z : FVec Ideal S1024x16x64 .f32) (p : Fin 1024) (g : Fin 16) (l : Fin 64) :
    kDev z (ix3 p g l) = z (ix3 p g l) - Ideal.div (∑ l' : Fin 64, z (ix3 p g l')) c64 := by
  unfold kDev
  rw [subf_apply, column_apply, kMean_apply]

/-- The group's variance: the sum of the squared deviations over `64.0`. -/
theorem kVar_apply (z : FVec Ideal S1024x16x64 .f32) (p : Fin 1024) (g : Fin 16) (o : Fin 1) :
    kVar z (ix3 p g o) = Ideal.div (∑ l : Fin 64, kDev z (ix3 p g l) * kDev z (ix3 p g l)) c64 := by
  unfold kVar
  rw [kMean_apply]
  rfl

/-- The normalised value of member `l` of group `g`. -/
theorem kNorm_apply (z : FVec Ideal S1024x16x64 .f32) (p : Fin 1024) (g : Fin 16) (l : Fin 64) :
    kNorm z (ix3 p g l) = kDev z (ix3 p g l) * Ideal.rsqrt (kVar z (ix3 p g (0 : Fin 1)) + eps) := by
  unfold kNorm
  rw [mulf_apply, column_apply]
  rfl

/-- A row of 1024 channels broadcast down the block reads the row at the channel. -/
theorem row_apply (v : FVec Ideal S1x1024 .f32) (p : Fin 1024) (q : Fin 1024) :
    broadcastTo S1024x1024 (shapeCast S1x1024 v shapeCasts_S1x1024_S1x1024) broadcasts_S1x1024_S1024x1024 (ix2 p q)
      = v (ix2 (0 : Fin 1) q) := by
  rw [shapeCast_self]
  exact broadcastTo_apply v broadcasts_S1x1024_S1024x1024 (ix2 p q) (ix2 (0 : Fin 1) q) fun a => by
    match a with
    | ⟨0, _⟩ => show 0 = if (1 : Nat) = 1 then 0 else p.val; rw [if_pos rfl]
    | ⟨1, _⟩ => show q.val = if (1024 : Nat) = 1 then 0 else q.val; rw [if_neg (by decide)]

/-- The channel's affine map. -/
theorem kAffine_apply (n : FVec Ideal S1024x1024 .f32) (v28 v32 : FVec Ideal S1x1024 .f32) (p q : Fin 1024) :
    kAffine n v28 v32 (ix2 p q) = n (ix2 p q) * v28 (ix2 (0 : Fin 1) q) + v32 (ix2 (0 : Fin 1) q) := by
  unfold kAffine
  rw [addf_apply, mulf_apply, row_apply, row_apply]

/-- The leaky rectifier, doubled, is the specification's tail of what goes in. -/
theorem kLeaky_double_apply (n : FVec Ideal S1024x1024 .f32) (v28 v32 : FVec Ideal S1x1024 .f32) (p q : Fin 1024) :
    addf (kLeaky (kAffine n v28 v32)) (kLeaky (kAffine n v28 v32)) (ix2 p q)
      = tail (n (ix2 p q)) (v28 (ix2 (0 : Fin 1) q)) (v32 (ix2 (0 : Fin 1) q)) := by
  rw [addf_apply]
  unfold kLeaky tail
  rw [select_apply, cmpf_apply, mulf_apply, broadcast_apply, broadcast_apply, kAffine_apply]
  rfl

/-! ## The dense layer at an index

The matrix product into a zero accumulator is the plain sum over the contracted axis; its operand indices at output
`(p, h)` and contraction index `k` are `(p, k)` in the block of `x` and `(k, h)` in the transposed weight. -/

theorem lin_lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

theorem lin_lhs1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

theorem lin_rhs0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

theorem lin_rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- Entry `(p, h)` of the dense layer: row `p` of the block of `x` against column `h` of the transposed weight,
    plus the bias at `h`. -/
theorem kLin_apply (v0 : FVec Ideal S1024x256 .f32) (v2 : FVec Ideal S256x1024 .f32) (v6 : FVec Ideal S1x1024 .f32)
    (p h : Fin 1024) :
    kLin v0 v2 v6 (ix2 p h) = (∑ k : Fin 256, v0 (ix2 p k) * v2 (ix2 k h)) + v6 (ix2 (0 : Fin 1) h) := by
  unfold kLin
  rw [addf_apply, row_apply]
  refine congrArg (· + v6 (ix2 (0 : Fin 1) h)) ?_
  refine (Ideal.matmul_constant_zero_apply dot_S1024x256_S256x1024_S1024x1024_1_0_0_1_n_n none
    (truncf .bf16 v0 bitsLt_bf16_f32) (truncf .bf16 (shapeCast S256x1024 v2 shapeCasts_S256x1024_S256x1024) bitsLt_bf16_f32)
    (ix2 p h)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p h)
      ((contrEquiv1 dot_S1024x256_S256x1024_S1024x1024_1_0_0_1_n_n 256 rfl rfl).symm k) = ix2 p k :=
    funext fun a => Fin.ext (by
      match a with
      | ⟨0, _⟩ => exact lin_lhs0 _ _
      | ⟨1, _⟩ => exact (lin_lhs1 _ _).trans hk)
  have er : dot_S1024x256_S256x1024_S1024x1024_1_0_0_1_n_n.rhsIdx (ix2 p h)
      ((contrEquiv1 dot_S1024x256_S256x1024_S1024x1024_1_0_0_1_n_n 256 rfl rfl).symm k) = ix2 k h :=
    funext fun a => Fin.ext (by
      match a with
      | ⟨0, _⟩ => exact (lin_rhs0 _ _).trans hk
      | ⟨1, _⟩ => exact lin_rhs1 _ _)
  rw [el, er, truncf_apply, truncf_apply, shapeCast_self]

/-! ## The stages put together -/

/-- On the regrouped row the deviation is the specification's. -/
theorem kDev_groups (Y : FVec Ideal S1024x1024 .f32) (p : Fin 1024) (g : Fin 16) (l : Fin 64) :
    kDev (kGroups Y) (ix3 p g l) = gdev (fun h => Y (ix2 p h)) g l := by
  rw [kDev_apply]
  unfold gdev gmean
  simp only [kGroups_apply]

/-- On the regrouped row the variance is the specification's. -/
theorem kVar_groups (Y : FVec Ideal S1024x1024 .f32) (p : Fin 1024) (g : Fin 16) (o : Fin 1) :
    kVar (kGroups Y) (ix3 p g o) = gvar (fun h => Y (ix2 p h)) g := by
  rw [kVar_apply]
  unfold gvar
  simp only [kDev_groups]

/-- On the regrouped row the normalised value is the specification's. -/
theorem kNorm_groups (Y : FVec Ideal S1024x1024 .f32) (p : Fin 1024) (g : Fin 16) (l : Fin 64) :
    kNorm (kGroups Y) (ix3 p g l) = normK (fun h => Y (ix2 p h)) g l := by
  rw [kNorm_apply, kDev_groups, kVar_groups]
  rfl

/-- ENTRY `(p, q)` OF WHAT THE BODY STORES: the tail of the normalised value of the block's row `p` at channel `q`'s
    group and place, with the scale and the shift read at channel `q`. -/
theorem payload_apply (v0 : FVec Ideal S1024x256 .f32) (v2 : FVec Ideal S256x1024 .f32) (v6 v28 v32 : FVec Ideal S1x1024 .f32)
    (p q : Fin 1024) :
    k0_pay1 (F := Ideal) (k0_pay2 (F := Ideal) v0 v2 v6 v28 v32) (ix2 p q)
      = tail (normK (fun h => kLin v0 v2 v6 (ix2 p h)) (grp q) (mem q))
          (v28 (ix2 (0 : Fin 1) q)) (v32 (ix2 (0 : Fin 1) q)) := by
  rw [payload_eq, kLeaky_double_apply, kUngroup_apply, kNorm_groups]

/-- The block's row of the dense layer is the specification's row `r` of the dense layer, once the three blocks
    are known to hold row `r` of `x`, the transposed weight and the bias. -/
theorem kLin_row (v0 : FVec Ideal S1024x256 .f32) (v2 : FVec Ideal S256x1024 .f32) (v6 : FVec Ideal S1x1024 .f32)
    (X : (⟨2, ![16384, 256]⟩ : Shape).Idx → EReal) (W : (⟨2, ![1024, 256]⟩ : Shape).Idx → EReal)
    (B : (⟨1, ![1024]⟩ : Shape).Idx → EReal) (p : Fin 1024) (r : Fin 16384)
    (h0 : ∀ k : Fin 256, v0 (ix2 p k) = X (ix2 r k))
    (h1 : ∀ (k : Fin 256) (h : Fin 1024), v2 (ix2 k h) = W (ix2 h k))
    (h2 : ∀ h : Fin 1024, v6 (ix2 (0 : Fin 1) h) = B (ix1 h)) :
    (fun h => kLin v0 v2 v6 (ix2 p h)) = lin X W B r := by
  funext h
  rw [kLin_apply]
  unfold lin
  simp only [h0, h1, h2]

/-- ENTRY `(p, q)` OF WHAT THE BODY STORES IS THE SPECIFICATION AT `(r, q)`, once the five blocks are known to hold row
    `r` of `x`, the transposed weight, and the bias, scale and shift as rows. -/
theorem payload_resK (v0 : FVec Ideal S1024x256 .f32) (v2 : FVec Ideal S256x1024 .f32) (v6 v28 v32 : FVec Ideal S1x1024 .f32)
    (X : (⟨2, ![16384, 256]⟩ : Shape).Idx → EReal) (W : (⟨2, ![1024, 256]⟩ : Shape).Idx → EReal)
    (B Ga Be : (⟨1, ![1024]⟩ : Shape).Idx → EReal) (p q : Fin 1024) (r : Fin 16384)
    (h0 : ∀ k : Fin 256, v0 (ix2 p k) = X (ix2 r k))
    (h1 : ∀ (k : Fin 256) (h : Fin 1024), v2 (ix2 k h) = W (ix2 h k))
    (h2 : ∀ h : Fin 1024, v6 (ix2 (0 : Fin 1) h) = B (ix1 h))
    (h3 : ∀ h : Fin 1024, v28 (ix2 (0 : Fin 1) h) = Ga (ix1 h))
    (h4 : ∀ h : Fin 1024, v32 (ix2 (0 : Fin 1) h) = Be (ix1 h)) :
    k0_pay1 (F := Ideal) (k0_pay2 (F := Ideal) v0 v2 v6 v28 v32) (ix2 p q) = resK X W B Ga Be (ix2 r q) := by
  rw [payload_apply, kLin_row v0 v2 v6 X W B p r h0 h1 h2, h3, h4]
  rfl

end Cert.BodyStages

end
-- ==== Proof.BlockToArray.lean ====
/-
  From what each grid point writes back to the whole result array.

  The grid has 16 points; point `t` stages rows `1024 t … 1024 t + 1023` of `x` and writes back the same rows of the
  result, all 1024 channels of them; the transposed weight and the bias, scale and shift rows are staged whole at
  every point.  The arrays the region finds for those four are what the host wrote just before it: the transpose of
  `W` (so entry `(k, h)` is `W[h, k]`) and the three vectors as rows (entry `(0, h)` is the vector's `h`).  So entry
  `(p, q)` of the block point `t` writes back is the specification at `(1024 t + p, q)`: block `t` of one function of
  the argument arrays.  The 16 blocks cover the array — row `r` lies in the block of point `r / 1024` — so the array
  ends holding that function.
-/
import proofs.«132653_j3556232922393_1_alg».proof.Proof.Gen.KernelIdeal.Value
import proofs.«132653_j3556232922393_1_alg».proof.Proof.BodyStages
import Idealize.ShloMosaic.Lib.Pipeline.Value
import Idealize.ShloMosaic.Lib.StableHlo.Run
import Idealize.ShloMosaic.Lib.Tactic

noncomputable section

namespace Cert.BlockToArray

open Cert.KernelIdeal Cert.KernelIdeal.Gen Cert.GroupNormSpec Cert.BodyStages
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the argument arrays as launched. -/
abbrev G (c : Dev nD) : S16384x1024.Idx → EReal :=
  resK (m ((c : Thread nD τ).loc main_arg0) : S16384x256.Idx → EReal) (m ((c : Thread nD τ).loc main_arg1) : S1024x256.Idx → EReal)
    (m ((c : Thread nD τ).loc main_arg2) : S1024.Idx → EReal) (m ((c : Thread nD τ).loc main_arg3) : S1024.Idx → EReal)
    (m ((c : Thread nD τ).loc main_arg4) : S1024.Idx → EReal)

/-! ## The arrays the host wrote before the region -/

/-- The region finds the transposed weight: entry `(k, h)` is `W[h, k]`. -/
theorem V_wt_apply (c : Dev nD) (k : Fin 256) (h : Fin 1024) :
    (V m c main_v0 : S256x1024.Idx → EReal) (ix2 k h) = (m ((c : Thread nD τ).loc main_arg1) : S1024x256.Idx → EReal) (ix2 h k) := by
  have e : (V m c main_v0 : S256x1024.Idx → EReal)
      = transpose S256x1024 [1, 0] (m ((c : Thread nD τ).loc main_arg1) : S1024x256.Idx → EReal) transposes_S1024x256_S256x1024_1_0 := by
    dsimp only [Gen.V, Gen.hostOps0]; after_results <;> rfl
  rw [e]
  refine transpose_apply [1, 0] _ transposes_S1024x256_S256x1024_1_0 (ix2 k h) (ix2 h k) fun b => ?_
  match b with
  | ⟨0, _⟩ => rfl
  | ⟨1, _⟩ => rfl

/-- A vector of 1024 channels as a row: entry `(0, h)` is the vector's `h`. -/
theorem row_of_vec (x : S1024.Idx → EReal) (h : Fin 1024) :
    shapeCast S1x1024 x shapeCasts_S1024_S1x1024 (ix2 (0 : Fin 1) h) = x (ix1 h) := by
  refine shapeCast_apply x shapeCasts_S1024_S1x1024 (ix2 (0 : Fin 1) h) (ix1 h) ?_
  rewrite [Shape.rowMajor_val_one, Shape.rowMajor_val_two]
  show h.val = 0 * 1024 + h.val
  omega

theorem V_bias_apply (c : Dev nD) (h : Fin 1024) :
    (V m c main_v1 : S1x1024.Idx → EReal) (ix2 (0 : Fin 1) h) = (m ((c : Thread nD τ).loc main_arg2) : S1024.Idx → EReal) (ix1 h) := by
  have e : (V m c main_v1 : S1x1024.Idx → EReal)
      = shapeCast S1x1024 (m ((c : Thread nD τ).loc main_arg2) : S1024.Idx → EReal) shapeCasts_S1024_S1x1024 := by
    dsimp only [Gen.V, Gen.hostOps0]; after_results; rfl
  rw [e, row_of_vec]

theorem V_scale_apply (c : Dev nD) (h : Fin 1024) :
    (V m c main_v2 : S1x1024.Idx → EReal) (ix2 (0 : Fin 1) h) = (m ((c : Thread nD τ).loc main_arg3) : S1024.Idx → EReal) (ix1 h) := by
  have e : (V m c main_v2 : S1x1024.Idx → EReal)
      = shapeCast S1x1024 (m ((c : Thread nD τ).loc main_arg3) : S1024.Idx → EReal) shapeCasts_S1024_S1x1024 := by
    dsimp only [Gen.V, Gen.hostOps0]; after_results; rfl
  rw [e, row_of_vec]

theorem V_shift_apply (c : Dev nD) (h : Fin 1024) :
    (V m c main_v3 : S1x1024.Idx → EReal) (ix2 (0 : Fin 1) h) = (m ((c : Thread nD τ).loc main_arg4) : S1024.Idx → EReal) (ix1 h) := by
  have e : (V m c main_v3 : S1x1024.Idx → EReal)
      = shapeCast S1x1024 (m ((c : Thread nD τ).loc main_arg4) : S1024.Idx → EReal) shapeCasts_S1024_S1x1024 := by
    dsimp only [Gen.V, Gen.hostOps0]; after_results; rfl
  rw [e, row_of_vec]

/-! ## The windows' blocks -/

/-- The printed index maps, decided over the 16 points: the block of `x` moves with the result's block along the rows;
    every other block index is zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every one of the 16 row blocks is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- Row `p` of the block of `x` at point `t` is row `r` of `x`, where `r` is `1024` times the result block's row index plus `p`. -/
theorem iblk_x_apply (c : Dev nD) (t : Fin cfg0.N) (p : Fin 1024) (k : Fin 256) (r : Fin 16384)
    (hr : r.val = win0_5.index t (0 : Fin 2) * 1024 + p.val) :
    (iblk m c 0 t : Vec Ideal S1024x256 .f32) (ix2 p k)
      = (m ((c : Thread nD τ).loc main_arg0) : S16384x256.Idx → EReal) (ix2 r k) := by
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; rw [e00, hr]; omega
  | ⟨1, _⟩ => show win0_0.index t (1 : Fin 2) * 256 + 1 * k.val = k.val; rw [e01]; omega

/-- The block of the transposed weight is the whole of it, at every point. -/
theorem iblk_wt_apply (c : Dev nD) (t : Fin cfg0.N) (k : Fin 256) (h : Fin 1024) :
    (iblk m c 1 t : Vec Ideal S256x1024 .f32) (ix2 k h)
      = (m ((c : Thread nD τ).loc main_arg1) : S1024x256.Idx → EReal) (ix2 h k) := by
  obtain ⟨-, -, e10, e11, -⟩ := idx_facts t
  refine Eq.trans ?_ (V_wt_apply m c k h)
  unfold iblk
  rw [View.read_apply]
  show V m c main_v0 _ = V m c main_v0 _
  congr 1
  funext a
  apply Fin.ext
  match a with
  | ⟨0, _⟩ => show win0_1.index t (0 : Fin 2) * 256 + 1 * k.val = k.val; rw [e10]; omega
  | ⟨1, _⟩ => show win0_1.index t (1 : Fin 2) * 1024 + 1 * h.val = h.val; rw [e11]; omega

/-- The bias row's block is the whole row. -/
theorem iblk_bias_apply (c : Dev nD) (t : Fin cfg0.N) (h : Fin 1024) :
    (iblk m c 2 t : Vec Ideal S1x1024 .f32) (ix2 (0 : Fin 1) h)
      = (m ((c : Thread nD τ).loc main_arg2) : S1024.Idx → EReal) (ix1 h) := by
  obtain ⟨-, -, -, -, e20, e21, -⟩ := idx_facts t
  refine Eq.trans ?_ (V_bias_apply m c h)
  unfold iblk
  rw [View.read_apply]
  show V m c main_v1 _ = V m c main_v1 _
  congr 1
  funext a
  apply Fin.ext
  match a with
  | ⟨0, _⟩ => show win0_2.index t (0 : Fin 2) * 1 + 1 * 0 = 0; rw [e20]
  | ⟨1, _⟩ => show win0_2.index t (1 : Fin 2) * 1024 + 1 * h.val = h.val; rw [e21]; omega

/-- The scale row's block is the whole row. -/
theorem iblk_scale_apply (c : Dev nD) (t : Fin cfg0.N) (h : Fin 1024) :
    (iblk m c 3 t : Vec Ideal S1x1024 .f32) (ix2 (0 : Fin 1) h)
      = (m ((c : Thread nD τ).loc main_arg3) : S1024.Idx → EReal) (ix1 h) := by
  obtain ⟨-, -, -, -, -, -, e30, e31, -⟩ := idx_facts t
  refine Eq.trans ?_ (V_scale_apply m c h)
  unfold iblk
  rw [View.read_apply]
  show V m c main_v2 _ = V m c main_v2 _
  congr 1
  funext a
  apply Fin.ext
  match a with
  | ⟨0, _⟩ => show win0_3.index t (0 : Fin 2) * 1 + 1 * 0 = 0; rw [e30]
  | ⟨1, _⟩ => show win0_3.index t (1 : Fin 2) * 1024 + 1 * h.val = h.val; rw [e31]; omega

/-- The shift row's block is the whole row. -/
theorem iblk_shift_apply (c : Dev nD) (t : Fin cfg0.N) (h : Fin 1024) :
    (iblk m c 4 t : Vec Ideal S1x1024 .f32) (ix2 (0 : Fin 1) h)
      = (m ((c : Thread nD τ).loc main_arg4) : S1024.Idx → EReal) (ix1 h) := by
  obtain ⟨-, -, -, -, -, -, -, -, e40, e41, -⟩ := idx_facts t
  refine Eq.trans ?_ (V_shift_apply m c h)
  unfold iblk
  rw [View.read_apply]
  show V m c main_v3 _ = V m c main_v3 _
  congr 1
  funext a
  apply Fin.ext
  match a with
  | ⟨0, _⟩ => show win0_4.index t (0 : Fin 2) * 1 + 1 * 0 = 0; rw [e40]
  | ⟨1, _⟩ => show win0_4.index t (1 : Fin 2) * 1024 + 1 * h.val = h.val; rw [e41]; omega

/-! ## What a point writes back, the cover, the array -/

/-- Entry `(p, q)` of the result's block at point `t` sits at row `1024` times the block's row index plus `p`, channel `q`. -/
theorem out_emb (t : Fin cfg0.N) (p q : Fin 1024) (r : Fin 16384)
    (hr : r.val = win0_5.index t (0 : Fin 2) * 1024 + p.val) :
    ((cfg0.win 5).blk t).view.emb (ix2 p q : S1024x1024.Idx) = (ix2 r q : S16384x1024.Idx) := by
  obtain ⟨-, -, -, -, -, -, -, -, -, -, -, e51⟩ := idx_facts t
  funext a
  apply Fin.ext
  match a with
  | ⟨0, _⟩ => show win0_5.index t (0 : Fin 2) * 1024 + 1 * p.val = r.val; rw [hr]; omega
  | ⟨1, _⟩ => show win0_5.index t (1 : Fin 2) * 1024 + 1 * q.val = q.val; rw [e51]; omega

/-- WHAT POINT `t` WRITES BACK is block `t` of the specification of the argument arrays. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero hz]
  simp only [View.ld_unit_zero (S := S1024x256) hz, View.ld_unit_zero (S := S256x1024) hz, View.ld_unit_zero (S := S1x1024) hz]
  obtain ⟨-, -, -, -, -, -, -, -, -, -, e50, -⟩ := idx_facts t
  funext j
  obtain ⟨p, q, rfl⟩ : ∃ (p q : Fin 1024), j = (ix2 p q : S1024x1024.Idx) := ⟨j 0, j 1, eq_ix2 j⟩
  have hp := p.isLt
  rw [View.read_apply, out_emb t p q ⟨win0_5.index t (0 : Fin 2) * 1024 + p.val, by omega⟩ rfl]
  exact payload_resK (iblk m c 0 t) (iblk m c 1 t) (iblk m c 2 t) (iblk m c 3 t) (iblk m c 4 t)
    (m ((c : Thread nD τ).loc main_arg0) : S16384x256.Idx → EReal) (m ((c : Thread nD τ).loc main_arg1) : S1024x256.Idx → EReal)
    (m ((c : Thread nD τ).loc main_arg2) : S1024.Idx → EReal) (m ((c : Thread nD τ).loc main_arg3) : S1024.Idx → EReal)
    (m ((c : Thread nD τ).loc main_arg4) : S1024.Idx → EReal) p q ⟨win0_5.index t (0 : Fin 2) * 1024 + p.val, by omega⟩
    (fun k => iblk_x_apply m c t p k _ rfl) (fun k h => iblk_wt_apply m c t k h) (fun h => iblk_bias_apply m c t h)
    (fun h => iblk_scale_apply m c t h) (fun h => iblk_shift_apply m c t h)

/-- An index of the result array is in point `t`'s block iff each coordinate is in the block's range on its axis. -/
theorem mem_blk (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v4).slice (win0_5.rect t)).set ↔ _
  rw [View.set_slice_whole, Rect.mem_set_unit]
  exact Iff.rfl

/-- THE COVER: row `r` of the result lies in the block of the point whose row index is `r / 1024`. -/
theorem cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- THE ARRAY after the run is the specification of the argument arrays. -/
theorem final (c : Dev nD) : (dats m 0 c).arrAt 5 cfg0.N = G m c :=
  (dats m 0 c).arrAt_eq_of_cover 5 (G m c) (fun t _ => flushed_eq m c t) cover

/-- THE RUN, READ: every weakly fair execution ends with the result array at the specification of the argument
    arrays, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.BlockToArray

end
-- ==== Proof.RefRead.lean ====
/-
  The reference program's result, read index by index, is the function `resR` of GroupNormSpec.

  The reference computes the dense layer `y = x Wᵀ + b` as a 16384 × 1024 array, views each row of 1024 channels as
  16 groups of 64 consecutive channels (a reshape to 16384 × 16 × 64), and per row and group takes the mean (sum
  over the 64 members divided by 64), the deviation from the mean, the variance (mean of the squared deviations)
  and the quotient of the deviation by the square root of variance plus a constant; it views the result again as
  16384 × 1024 and applies, per channel, an affine map, a leaky rectifier and a doubling.  These are the operations of
  `resR` in the same order, so no algebra is needed: every step below only says WHICH element of the operands an
  element of a result reads.  The two reshapes are the only places with arithmetic on indices: element `(r, g, l)` of
  the grouped view is element `(r, 64 g + l)` of the flat one, and element `(r, h)` of the flat view is element
  `(r, h / 64, h % 64)` of the grouped one.
-/
import proofs.«132653_j3556232922393_1_alg».proof.Proof.Gen.ReferenceIdeal.Read
import proofs.«132653_j3556232922393_1_alg».proof.Proof.GroupNormSpec
import Idealize.ShloMosaic.PureOps.Ideal.Laws

noncomputable section

namespace Cert.RefRead

open Cert.ReferenceIdeal Cert.ReferenceIdeal.Read Cert.GroupNormSpec Idealize.ShloMosaic Idealize.ShloMosaic.ValueIdx

variable (X : (⟨S16384x256, .f32⟩ : BufTy).Contents (Elt Ideal)) (W : (⟨S1024x256, .f32⟩ : BufTy).Contents (Elt Ideal))
  (B Ga Be : (⟨S1024, .f32⟩ : BufTy).Contents (Elt Ideal))

/-! ## The dense layer in the grouped view

Element `(r, g, l)` of the grouped view has flat offset `(16 r + g) 64 + l = 1024 r + (64 g + l)` with
`64 g + l < 1024`, so it is element `(r, 64 g + l)` of the flat array: the quotient by 1024 is `r` and the
remainder is `64 g + l`. -/

/-- The element of `x` the `k`-th term of the dot product reads: row `r`, column `k`. -/
theorem lidx_grouped (j : S16384x16x64.Idx) (k : Fin 256) : lidx_main_v0 (idx_main_v4 j) k = ix2 (j 0) k :=
  funext fun a => Fin.ext (by
    have h0 : (j 0).val < 16384 := (j 0).isLt
    have h1 : (j 1).val < 16 := (j 1).isLt
    have h2 : (j 2).val < 64 := (j 2).isLt
    match a with
    | ⟨0, _⟩ => show (((j 0).val * 16 + (j 1).val) * 64 + (j 2).val) / 1024 = (j 0).val; omega
    | ⟨1, _⟩ => rfl)

/-- The element of `W` the `k`-th term of the dot product reads: row `64 g + l`, column `k`. -/
theorem ridx_grouped (j : S16384x16x64.Idx) (k : Fin 256) :
    ridx_main_v0 (idx_main_v4 j) k = ix2 (chan (j 1) (j 2)) k :=
  funext fun a => Fin.ext (by
    have h0 : (j 0).val < 16384 := (j 0).isLt
    have h1 : (j 1).val < 16 := (j 1).isLt
    have h2 : (j 2).val < 64 := (j 2).isLt
    match a with
    | ⟨0, _⟩ => show (((j 0).val * 16 + (j 1).val) * 64 + (j 2).val) % 1024 = (j 1).val * 64 + (j 2).val; omega
    | ⟨1, _⟩ => rfl)

/-- The element of the bias (broadcast along the rows) that is added: channel `64 g + l`. -/
theorem bias_idx_grouped (j : S16384x16x64.Idx) : idx_main_v1 (idx_main_v2 (idx_main_v4 j)) = ix1 (chan (j 1) (j 2)) :=
  funext fun a => Fin.ext (by
    have h0 : (j 0).val < 16384 := (j 0).isLt
    have h1 : (j 1).val < 16 := (j 1).isLt
    have h2 : (j 2).val < 64 := (j 2).isLt
    match a with
    | ⟨0, _⟩ => show (((j 0).val * 16 + (j 1).val) * 64 + (j 2).val) % 1024 = (j 1).val * 64 + (j 2).val; omega)

/-- Element `(r, g, l)` of the grouped dense layer is `lin r (64 g + l) = (∑ k, x[r,k] W[64 g + l, k]) + b[64 g + l]`. -/
theorem grouped_eq_lin (j : S16384x16x64.Idx) :
    val_main_v4 (F := Ideal) X W B j = lin X W B (j 0) (chan (j 1) (j 2)) := by
  rw [val_main_v4_apply, val_main_v3_apply, val_main_v0_apply, val_main_v2_apply, val_main_v1_apply, bias_idx_grouped]
  simp only [lidx_grouped, ridx_grouped]
  rfl

/-! ## Mean, deviation, variance, normalised value

Each reduction is its initial value `0` plus the sum over the 64 members of the group; each broadcast of a per-group
value reads the group's one element; the constants are broadcast scalars.  The coordinates of the indices these
steps build are the coordinates of the index they start from, so once the initial `0` is dropped the two sides are
the same expression. -/

/-- The group's mean: the sum of the group's 64 values of the dense layer, divided by `64`. -/
theorem mean_eq_gmean (j : S16384x16x1.Idx) : val_main_v8 (F := Ideal) X W B j = gmean (lin X W B (j 0)) (j 1) := by
  rw [val_main_v8_apply, val_main_v6_apply, val_main_v5_apply, val_main_v7_apply, val_main_cst_0_apply, val_main_cst_apply]
  simp only [grouped_eq_lin]
  rw [Ideal.hostDivf_def, Ideal.ofBits_def, Ideal.ofBits_def, Ideal.ofBits_zero_f32, zero_add]
  rfl

/-- The deviation from the group's mean (the copy that is squared for the variance). -/
theorem dev_eq_gdev (j : S16384x16x64.Idx) :
    val_main_v10 (F := Ideal) X W B j = gdev (lin X W B (j 0)) (j 1) (j 2) := by
  rw [val_main_v10_apply, val_main_v9_apply, grouped_eq_lin, mean_eq_gmean]
  rfl

/-- The deviation from the group's mean (the copy that is divided by the square root). -/
theorem dev'_eq_gdev (j : S16384x16x64.Idx) :
    val_main_v17 (F := Ideal) X W B j = gdev (lin X W B (j 0)) (j 1) (j 2) := by
  rw [val_main_v17_apply, val_main_v16_apply, grouped_eq_lin, mean_eq_gmean]
  rfl

/-- The group's variance: the sum of the 64 squared deviations, divided by `64`. -/
theorem var_eq_gvar (j : S16384x16x1.Idx) : val_main_v15 (F := Ideal) X W B j = gvar (lin X W B (j 0)) (j 1) := by
  rw [val_main_v15_apply, val_main_v13_apply, val_main_v12_apply, val_main_v14_apply, val_main_cst_2_apply, val_main_cst_1_apply]
  simp only [val_main_v11_apply, dev_eq_gdev]
  rw [Ideal.hostDivf_def, Ideal.ofBits_def, Ideal.ofBits_def, Ideal.ofBits_zero_f32, zero_add]
  rfl

/-- The normalised value: the deviation over the square root of the variance plus the constant. -/
theorem norm_eq_normR (j : S16384x16x64.Idx) :
    val_main_v22 (F := Ideal) X W B j = normR (lin X W B (j 0)) (j 1) (j 2) := by
  rw [val_main_v22_apply, dev'_eq_gdev, val_main_v21_apply, val_main_v20_apply, val_main_v19_apply, val_main_v18_apply,
    val_main_cst_3_apply, var_eq_gvar]
  rfl

/-! ## Back to the flat view

Element `(r, h)` of the flat view has offset `1024 r + h` with `h < 1024`; in the grouped view its coordinates are
`(1024 r + h) / 1024 = r`, `(1024 r + h) / 64 % 16 = h / 64` and `(1024 r + h) % 64 = h % 64`. -/

theorem flat_row (i : S16384x1024.Idx) : idx_main_v23 i 0 = i 0 :=
  Fin.ext (by
    have h0 : (i 0).val < 16384 := (i 0).isLt
    have h1 : (i 1).val < 1024 := (i 1).isLt
    show ((i 0).val * 1024 + (i 1).val) / 1024 = (i 0).val; omega)

theorem flat_grp (i : S16384x1024.Idx) : idx_main_v23 i 1 = grp (i 1) :=
  Fin.ext (by
    have h0 : (i 0).val < 16384 := (i 0).isLt
    have h1 : (i 1).val < 1024 := (i 1).isLt
    show ((i 0).val * 1024 + (i 1).val) / 64 % 16 = (i 1).val / 64; omega)

theorem flat_mem (i : S16384x1024.Idx) : idx_main_v23 i 2 = mem (i 1) :=
  Fin.ext (by
    have h0 : (i 0).val < 16384 := (i 0).isLt
    have h1 : (i 1).val < 1024 := (i 1).isLt
    show ((i 0).val * 1024 + (i 1).val) % 64 = (i 1).val % 64; omega)

/-- The normalised value at row `r` and channel `h`: that of member `h % 64` of group `h / 64`. -/
theorem flat_eq_normR (i : S16384x1024.Idx) :
    val_main_v23 (F := Ideal) X W B i = normR (lin X W B (i 0)) (grp (i 1)) (mem (i 1)) := by
  rw [val_main_v23_apply, norm_eq_normR, flat_row, flat_grp, flat_mem]

/-! ## The affine map, the rectifier, the doubling -/

/-- The scale (broadcast along the rows) is read at the channel. -/
theorem scale_idx (i : S16384x1024.Idx) : idx_main_v24 (idx_main_v25 i) = ix1 (i 1) :=
  funext fun a => Fin.ext (by match a with | ⟨0, _⟩ => rfl)

/-- The shift (broadcast along the rows) is read at the channel. -/
theorem shift_idx (i : S16384x1024.Idx) : idx_main_v27 (idx_main_v28 i) = ix1 (i 1) :=
  funext fun a => Fin.ext (by match a with | ⟨0, _⟩ => rfl)

/-- THE REFERENCE'S RESULT is `resR`: with `z = n γ[h] + β[h]` for the normalised value `n`, the element is
    `s + s` where `s` is `z · slope` if `z < 0` and `z` otherwise. -/
theorem val_eq_resR (X : (⟨S16384x256, .f32⟩ : BufTy).Contents (Elt Ideal)) (W : (⟨S1024x256, .f32⟩ : BufTy).Contents (Elt Ideal))
    (B Ga Be : (⟨S1024, .f32⟩ : BufTy).Contents (Elt Ideal)) :
    Cert.ReferenceIdeal.Read.val_main_v35 (F := Ideal) X W B Ga Be = Cert.GroupNormSpec.resR X W B Ga Be := by
  funext i
  rw [val_main_v35_apply, val_main_v34_apply, val_main_v31_apply, val_main_v33_apply, val_main_v29_apply, val_main_v26_apply,
    flat_eq_normR, val_main_v25_apply, val_main_v24_apply, val_main_v28_apply, val_main_v27_apply, val_main_v30_apply,
    val_main_cst_4_apply, val_main_v32_apply, val_main_cst_5_apply, scale_idx, shift_idx]
  rfl

end Cert.RefRead

end
-- ==== Proof.lean ====
/-
  A dense layer followed by a group normalisation, a per-channel affine map, a leaky rectifier and a doubling:
  `out = 2 * leaky(gamma * norm(x W^T + b) + beta)` over x[16384, 256], W[1024, 256] and b, gamma, beta[1024], the
  1024 channels normalised in 16 groups of 64 consecutive channels, per row.

  The kernel walks the rows in 16 blocks of 1024; in each it multiplies the block of `x` by the transposed weight,
  adds the bias, regroups each row as 16 x 64, takes each group's mean and variance as lane sums over 64.0, scales
  the deviation by the RECIPROCAL SQUARE ROOT of variance plus a constant, and applies the tail.  The reference does
  the same on the whole array but DIVIDES the deviation by the SQUARE ROOT of variance plus the constant.  Read on
  the extended reals every other step is the same operation on both sides (a change of float format is the identity,
  a matrix product into zero is the plain sum a `dot_general` is, a lane sum is the plain sum a host sum from zero is,
  and the float constants are the same patterns), so the one thing to prove is
      d * rsqrt v = d / sqrt v      with      v = (sum of 64 squares) / 64 + c,  c > 0.
  That fails on the extended reals for `v` at or below zero, but it holds for every `d`, finite or not, once `v` is
  positive — and this `v` always is, because a square of an extended real is never negative.  So the two results
  are one function of the arguments for ALL inputs, and the precondition (every input finite) is never opened.

  The modules: LibRsqrtLaw (the law and the two constants), GroupNormSpec (the function, in the kernel's and the
  reference's spelling, and their equality), RefRead (the reference's generated read-at-an-index lemmas composed:
  the reference is the function), BodyStages (what the kernel's body stores at one index of its block),
  BlockToArray (block `t` of the result is block `t` of the function; the 16 blocks cover the array).  The
  kernel's frames and its run block by block, and the reference's run, are the generated modules imported below;
  the idealization rewrote nothing, so `preserves` is trivial.
-/
import proofs.«132653_j3556232922393_1_alg».proof.Defs
import proofs.«132653_j3556232922393_1_alg».proof.Proof.Gen.Kernel
import proofs.«132653_j3556232922393_1_alg».proof.Proof.Gen.Kernel.Skeleton
import proofs.«132653_j3556232922393_1_alg».proof.Proof.Gen.Kernel.Launch
import proofs.«132653_j3556232922393_1_alg».proof.Proof.Gen.Kernel.Points
import proofs.«132653_j3556232922393_1_alg».proof.Proof.Gen.Kernel.Frame
import proofs.«132653_j3556232922393_1_alg».proof.Proof.Gen.KernelIdeal
import proofs.«132653_j3556232922393_1_alg».proof.Proof.Gen.KernelIdeal.Skeleton
import proofs.«132653_j3556232922393_1_alg».proof.Proof.Gen.KernelIdeal.Launch
import proofs.«132653_j3556232922393_1_alg».proof.Proof.Gen.KernelIdeal.Points
import proofs.«132653_j3556232922393_1_alg».proof.Proof.Gen.KernelIdeal.Frame
import proofs.«132653_j3556232922393_1_alg».proof.Proof.Gen.ReferenceIdeal
import proofs.«132653_j3556232922393_1_alg».proof.Proof.Gen.Pre_finite_inputs
import proofs.«132653_j3556232922393_1_alg».proof.Proof.Gen.KernelIdeal.Value
import proofs.«132653_j3556232922393_1_alg».proof.Proof.Gen.ReferenceIdeal.Run
import proofs.«132653_j3556232922393_1_alg».proof.Proof.Gen.ReferenceIdeal.Read
import proofs.«132653_j3556232922393_1_alg».proof.Proof.BlockToArray
import proofs.«132653_j3556232922393_1_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the function in the kernel's spelling, the reference's at
    the function in the reference's spelling, of arguments that agree: one function. -/
theorem algebraic : Cert.algebraic_KernelIdeal_ReferenceIdeal := by
  intro m ρ m' ρ' _ hagree
  refine ⟨fun c => Cert.BlockToArray.G m c, Cert.BlockToArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.RefRead.val_eq_resR, (hagree c).1, (hagree c).2.1, (hagree c).2.2.1,
    (hagree c).2.2.2.1, (hagree c).2.2.2.2]
  exact (Cert.GroupNormSpec.resK_eq_resR _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
